-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x512x512 : Shape := ⟨4, ![32, 1, 512, 512]⟩
abbrev S_ : Shape := ⟨0, ![]⟩

class Facts : Prop where
  bcast_S_S32x1x512x512 : S_.BroadcastsInDim S32x1x512x512 (![] : Fin 0 → Fin S32x1x512x512.rank)
  reducesTo_S32x1x512x512_S_d0_1_2_3 : S32x1x512x512.ReducesTo [0, 1, 2, 3] S_
  h_S_ : 0 < S_.numel

variable [Facts]

def fn {F : FTy → Type} [FloatOps F] (main_arg0 : FVec F S32x1x512x512 .f32) (main_arg1 : FVec F S32x1x512x512 .f32) (main_arg2 : FVec F S32x1x512x512 .f32) : IVec S_ 1 :=
  let main_v0 : FVec F S32x1x512x512 .f32 := Host.absf main_arg0
  let main_cst : FVec F S_ .f32 := constant S_ .f32 0x7F800000#32
  let main_v1 : FVec F S32x1x512x512 .f32 := broadcastInDim S32x1x512x512 ![] bcast_S_S32x1x512x512 main_cst
  let main_v2 : IVec S32x1x512x512 1 := cmpf .olt main_v0 main_v1
  let main_c : IVec S_ 1 := constantI S_ 1 1#1
  let main_v3 : IVec S_ 1 := (fun x v => Host.reduce IntOp.andi x v reducesTo_S32x1x512x512_S_d0_1_2_3 h_S_) main_v2 main_c
  let main_v4 : FVec F S32x1x512x512 .f32 := Host.absf main_arg1
  let main_cst_0 : FVec F S_ .f32 := constant S_ .f32 0x7F800000#32
  let main_v5 : FVec F S32x1x512x512 .f32 := broadcastInDim S32x1x512x512 ![] bcast_S_S32x1x512x512 main_cst_0
  let main_v6 : IVec S32x1x512x512 1 := cmpf .olt main_v4 main_v5
  let main_c_1 : IVec S_ 1 := constantI S_ 1 1#1
  let main_v7 : IVec S_ 1 := (fun x v => Host.reduce IntOp.andi x v reducesTo_S32x1x512x512_S_d0_1_2_3 h_S_) main_v6 main_c_1
  let main_v8 : IVec S_ 1 := andi main_v3 main_v7
  let main_v9 : FVec F S32x1x512x512 .f32 := Host.absf main_arg2
  let main_cst_2 : FVec F S_ .f32 := constant S_ .f32 0x7F800000#32
  let main_v10 : FVec F S32x1x512x512 .f32 := broadcastInDim S32x1x512x512 ![] bcast_S_S32x1x512x512 main_cst_2
  let main_v11 : IVec S32x1x512x512 1 := cmpf .olt main_v9 main_v10
  let main_c_3 : IVec S_ 1 := constantI S_ 1 1#1
  let main_v12 : IVec S_ 1 := (fun x v => Host.reduce IntOp.andi x v reducesTo_S32x1x512x512_S_d0_1_2_3 h_S_) main_v11 main_c_3
  let main_v13 : IVec S_ 1 := andi main_v8 main_v12
  main_v13
-- ==== Kernel.lean ====
abbrev S32x1x512x512 : Shape := ⟨4, ![32, 1, 512, 512]⟩
abbrev S16384x512 : Shape := ⟨2, ![16384, 512]⟩
abbrev S2x1x1 : Shape := ⟨3, ![2, 1, 1]⟩
abbrev S1024x512 : Shape := ⟨2, ![1024, 512]⟩
abbrev S1x1x1 : Shape := ⟨3, ![1, 1, 1]⟩
abbrev S1x512 : Shape := ⟨2, ![1, 512]⟩
abbrev S512 : Shape := ⟨1, ![512]⟩
abbrev S1 : Shape := ⟨1, ![1]⟩
abbrev S1x1 : Shape := ⟨2, ![1, 1]⟩
abbrev S_ : Shape := ⟨0, ![]⟩

abbrev nBuf : Space → Nat
  | .hbm => 11
  | .vmem => 9
  | .smem => 0
  | _ => 0

abbrev bufTy : (tb : Table) → Fin (tcTables nBuf tb) → BufTy
  | .hbm, ⟨0, _⟩ => ⟨S32x1x512x512, .f32⟩
  | .hbm, ⟨1, _⟩ => ⟨S32x1x512x512, .f32⟩
  | .hbm, ⟨2, _⟩ => ⟨S32x1x512x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S2x1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x1x1, .f32⟩
  | .local _ .vmem, ⟨7, _⟩ => ⟨S1x1x1, .f32⟩
  | .local _ .vmem, ⟨8, _⟩ => ⟨S1x512, .f32⟩
  | _, _ => ⟨S32x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v45 : BitVec 1 := Scalar.cmpi .eq arg1 c7_i32
  let v46 : BitVec 32 := Scalar.extui v45
  let c0_i32_21 : BitVec 32 := 0#32
  let v47 : BitVec 1 := Scalar.cmpi .ne v46 c0_i32_21
  v47

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S32x1x512x512_S16384x512 : S32x1x512x512.ShapeCasts S16384x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S512 : S1024x512.Reduces [0] S512
  shapeCasts_S512_S1x512 : S512.ShapeCasts S1x512
  reduces_S1x512_S1 : S1x512.Reduces [1] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S16384x512.size a
  hwx0_2 : ∀ i : grid0.Coords, EltTy.bits .f32 = 32 ∨ (Rect.block (s := S16384x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x1x512x512 : Shape := ⟨4, ![32, 1, 512, 512]⟩
abbrev S8388608 : Shape := ⟨1, ![8388608]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S32x1x512x512, .f32⟩
  | .hbm, ⟨1, _⟩ => ⟨S32x1x512x512, .f32⟩
  | .hbm, ⟨2, _⟩ => ⟨S32x1x512x512, .f32⟩
  | .hbm, ⟨3, _⟩ => ⟨S8388608, .f32⟩
  | .hbm, ⟨4, _⟩ => ⟨S8388608, .f32⟩
  | .hbm, ⟨5, _⟩ => ⟨S8388608, .f32⟩
  | .hbm, ⟨6, _⟩ => ⟨S_, .f32⟩
  | .hbm, ⟨7, _⟩ => ⟨S8388608, .f32⟩
  | .hbm, ⟨8, _⟩ => ⟨S8388608, .i1⟩
  | .hbm, ⟨9, _⟩ => ⟨S_, .f32⟩
  | .hbm, ⟨10, _⟩ => ⟨S8388608, .f32⟩
  | .hbm, ⟨11, _⟩ => ⟨S8388608, .f32⟩
  | .hbm, ⟨12, _⟩ => ⟨S_, .f32⟩
  | .hbm, ⟨13, _⟩ => ⟨S8388608, .f32⟩
  | .hbm, ⟨14, _⟩ => ⟨S8388608, .i1⟩
  | .hbm, ⟨15, _⟩ => ⟨S_, .f32⟩
  | .hbm, ⟨16, _⟩ => ⟨S8388608, .f32⟩
  | .hbm, ⟨17, _⟩ => ⟨S8388608, .i1⟩
  | .hbm, ⟨18, _⟩ => ⟨S8388608, .i1⟩
  | .hbm, ⟨19, _⟩ => ⟨S_, .f32⟩
  | .hbm, ⟨20, _⟩ => ⟨S_, .f32⟩
  | .hbm, ⟨21, _⟩ => ⟨S8388608, .f32⟩
  | .hbm, ⟨22, _⟩ => ⟨S8388608, .f32⟩
  | .hbm, ⟨23, _⟩ => ⟨S8388608, .f32⟩
  | .hbm, ⟨24, _⟩ => ⟨S8388608, .f32⟩
  | .hbm, ⟨25, _⟩ => ⟨S8388608, .f32⟩
  | .hbm, ⟨26, _⟩ => ⟨S8388608, .f32⟩
  | .hbm, ⟨27, _⟩ => ⟨S_, .f32⟩
  | .hbm, ⟨28, _⟩ => ⟨S8388608, .f32⟩
  | .hbm, ⟨29, _⟩ => ⟨S8388608, .f32⟩
  | .hbm, ⟨30, _⟩ => ⟨S8388608, .f32⟩
  | .hbm, ⟨31, _⟩ => ⟨S8388608, .f32⟩
  | .hbm, ⟨32, _⟩ => ⟨S_, .f32⟩
  | .hbm, ⟨33, _⟩ => ⟨S8388608, .f32⟩
  | .hbm, ⟨34, _⟩ => ⟨S8388608, .f32⟩
  | .hbm, ⟨35, _⟩ => ⟨S8388608, .f32⟩
  | .hbm, ⟨36, _⟩ => ⟨S_, .f32⟩
  | .hbm, ⟨37, _⟩ => ⟨S8388608, .f32⟩
  | .hbm, ⟨38, _⟩ => ⟨S8388608, .f32⟩
  | .hbm, ⟨39, _⟩ => ⟨S8388608, .f32⟩
  | .hbm, ⟨40, _⟩ => ⟨S8388608, .f32⟩
  | .hbm, ⟨41, _⟩ => ⟨S8388608, .f32⟩
  | .hbm, ⟨42, _⟩ => ⟨S8388608, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S32x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_cst_4 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_cst_9 : Ref sig .tc := ⟨.hbm, 45, rfl⟩
abbrev main_v29 : Ref sig .tc := ⟨.hbm, 46, rfl⟩

abbrev nD : Nat := 1
abbrev τ : Topo := Topo.v7x

variable {F : FTy → Type} [FloatOps F]

class Facts₀ : Prop where
  shapeCasts_S32x1x512x512_S8388608 : S32x1x512x512.ShapeCasts S8388608
  bcast_S_S8388608 : S_.BroadcastsInDim S8388608 (![] : Fin 0 → Fin S8388608.rank)
  reducesTo_S8388608_S_d0 : S8388608.ReducesTo [0] S_
  h_S_ : 0 < S_.numel

variable [Facts₀]

class Facts : Prop extends Facts₀ where

variable [Facts]
-- ==== Proof.KernelPieces.lean ====
/-
  What one grid point leaves behind, as values. The body keeps a running [1, 512] row of per-lane partial sums in a
  scratch buffer: at the first tile of a half it stores the zero row and adds the tile's column sums to it; at every
  later tile it adds the tile's column sums to what the tile before left; at the last tile of a half it also sums the
  row's 512 lanes into the half's one output cell. Each statement below reads the stores one case of the body makes
  back as the body's own arithmetic (the skeleton's payloads) of the three input tiles and the row found in the scratch.
-/
import proofs.«120076_j26989574488433_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The running row after a tile: the row before it plus the column sums of the tile's weighted cross-entropies. -/
abbrev step (x0 x1 x2 : Vec F S1024x512 .f32) (row : Vec F S1x512 .f32) : Vec F S1x512 .f32 :=
  k0_pay1 (k0_pay5 x1 x2) (k0_pay6 x0 x1) row

/-- A middle tile: the scratch row ends at the step from the row it held. -/
theorem scratch_B (c : Dev nD) (i : grid0.Coords) (a2 : Memref sig .tc .vmem S1024x512 .f32) (h2 : a2.IsWhole) (a3 : Memref sig .tc .vmem S1024x512 .f32) (h3 : a3.IsWhole) (a4 : Memref sig .tc .vmem S1024x512 .f32) (h4 : a4.IsWhole) (a5 : Memref sig .tc .vmem S1x1x1 .f32) (h5 : a5.IsWhole) (a6 : Memref sig .tc .vmem S1x512 .f32) (h6 : a6.IsWhole) (hc0 : ¬cond0_0 i) (hc1 : ¬cond0_1 i)
    (x0 x1 x2 : Vec F S1024x512 .f32) (xs0 : Vec F S1x512 .f32) :
    sout0_B_0 c i a2 h2 a3 h3 a4 h4 a5 h5 a6 h6 hc0 hc1 x0 x1 x2 xs0 = step x0 x1 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero hz2]
  simp only [View.readAt_eq_ld, h2.read_unread, h3.read_unread, h4.read_unread, h6.read_unread,
    View.ld_unit_zero (S := S1024x512) hz2, View.ld_unit_zero (S := S1x512) hz2]

/-- The last tile of a half: the scratch row ends at the step from the row it held, -/
theorem scratch_C (c : Dev nD) (i : grid0.Coords) (a2 : Memref sig .tc .vmem S1024x512 .f32) (h2 : a2.IsWhole) (a3 : Memref sig .tc .vmem S1024x512 .f32) (h3 : a3.IsWhole) (a4 : Memref sig .tc .vmem S1024x512 .f32) (h4 : a4.IsWhole) (a5 : Memref sig .tc .vmem S1x1x1 .f32) (h5 : a5.IsWhole) (a6 : Memref sig .tc .vmem S1x512 .f32) (h6 : a6.IsWhole) (hc0 : ¬cond0_0 i) (hc1 : cond0_1 i)
    (x0 x1 x2 : Vec F S1024x512 .f32) (xs0 : Vec F S1x512 .f32) :
    sout0_C_0 c i a2 h2 a3 h3 a4 h4 a5 h5 a6 h6 hc0 hc1 x0 x1 x2 xs0 = step x0 x1 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz2]
  simp only [View.readAt_eq_ld, h2.read_unread, h3.read_unread, h4.read_unread, h6.read_unread,
    View.ld_unit_zero (S := S1024x512) hz2, View.ld_unit_zero (S := S1x512) hz2]

/-- and the half's output cell at the lane sum of that row. -/
theorem out_C (c : Dev nD) (i : grid0.Coords) (a2 : Memref sig .tc .vmem S1024x512 .f32) (h2 : a2.IsWhole) (a3 : Memref sig .tc .vmem S1024x512 .f32) (h3 : a3.IsWhole) (a4 : Memref sig .tc .vmem S1024x512 .f32) (h4 : a4.IsWhole) (a5 : Memref sig .tc .vmem S1x1x1 .f32) (h5 : a5.IsWhole) (a6 : Memref sig .tc .vmem S1x512 .f32) (h6 : a6.IsWhole) (hc0 : ¬cond0_0 i) (hc1 : cond0_1 i)
    (x0 x1 x2 : Vec F S1024x512 .f32) (xs0 : Vec F S1x512 .f32) :
    out0_C_3 c i a2 h2 a3 h3 a4 h4 a5 h5 a6 h6 hc0 hc1 x0 x1 x2 xs0 = k0_pay2 (step x0 x1 x2 xs0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz3, View.readCov_unit_zero (S := S1x512) _ hz2]
  simp only [View.readAt_eq_ld, h2.read_unread, h3.read_unread, h4.read_unread, h6.read_unread,
    View.ld_unit_zero (S := S1024x512) hz2, View.ld_unit_zero (S := S1x512) hz2]

/-- The first tile of a half: the scratch row ends at the step from the zero row. -/
theorem scratch_A (c : Dev nD) (i : grid0.Coords) (a2 : Memref sig .tc .vmem S1024x512 .f32) (h2 : a2.IsWhole) (a3 : Memref sig .tc .vmem S1024x512 .f32) (h3 : a3.IsWhole) (a4 : Memref sig .tc .vmem S1024x512 .f32) (h4 : a4.IsWhole) (a5 : Memref sig .tc .vmem S1x1x1 .f32) (h5 : a5.IsWhole) (a6 : Memref sig .tc .vmem S1x512 .f32) (h6 : a6.IsWhole) (hc0 : cond0_0 i) (hc1 : ¬cond0_1 i)
    (x0 x1 x2 : Vec F S1024x512 .f32) :
    sout0_A_0 c i a2 h2 a3 h3 a4 h4 a5 h5 a6 h6 hc0 hc1 x0 x1 x2 = step x0 x1 x2 (k0_pay3 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1x512) hz2, View.readCov_unit_zero (S := S1x512) _ hz2]
  simp only [View.readAt_eq_ld, h2.read_unread, h3.read_unread, h4.read_unread,
    View.ld_unit_zero (S := S1024x512) hz2]

end Cert.KernelIdeal.Pieces

end
-- ==== Proof.LibFiniteSums.lean ====
/-
  General lemmas on finite sums, for value proofs on the extended reals. Nothing here mentions a program.

  * `sum_split`     a sum over `Fin N`, `N = m * n`, as the double sum over `a < m`, `b < n` at position `b + n * a`
                    (an array axis cut into `m` blocks of `n`);
  * `sum_comm4`     four nested sums over finite types: the inner two move outside;
  * `sum_mul_coe`   `(∑ f) * x = ∑ (f * x)` on the extended reals for a real `x ≥ 0`, whatever the terms are
                    (infinities of both signs included): a mean's division by a positive count distributes over a sum;
  * `sum_idx1`, `sum_idx3`   a sum over a rank-1 / rank-3 index set of literal extents as the sum over its coordinates
                    (the library's `ValueIdx.sum_idx2` at the two neighbouring ranks).
-/
import Mathlib.Data.EReal.Basic
import Mathlib.Data.EReal.Operations
import Mathlib.Algebra.BigOperators.Fin
import Mathlib.Algebra.BigOperators.Intervals
import Mathlib.Logic.Equiv.Fin.Basic
import Idealize.ShloMosaic.Lib.ValueIdx

noncomputable section

open scoped BigOperators
open Idealize.ShloMosaic Idealize.ShloMosaic.ValueIdx

namespace Cert.LibFiniteSums

/-! ## Re-indexing -/

/-- A sum over `Fin N` with `N = m * n` is the double sum over `a < m`, `b < n` at position `b + n * a`. -/
theorem sum_split {M : Type*} [AddCommMonoid M] (m n N : ℕ) (h : m * n = N) (g : Fin N → M) :
    ∑ x, g x = ∑ a : Fin m, ∑ b : Fin n,
      g ⟨b.val + n * a.val, h ▸ (finProdFinEquiv (a, b)).isLt⟩ := by
  subst h
  rw [← Equiv.sum_comp finProdFinEquiv g, Fintype.sum_prod_type]
  rfl

/-- Four nested sums: the inner two move outside. -/
theorem sum_comm4 {M : Type*} [AddCommMonoid M] {α β γ δ : Type*} [Fintype α] [Fintype β] [Fintype γ] [Fintype δ]
    (X : α → β → γ → δ → M) :
    ∑ a, ∑ b, ∑ c, ∑ d, X a b c d = ∑ c, ∑ d, ∑ a, ∑ b, X a b c d := by
  calc ∑ a, ∑ b, ∑ c, ∑ d, X a b c d
      = ∑ a, ∑ c, ∑ b, ∑ d, X a b c d := Finset.sum_congr rfl fun a _ => Finset.sum_comm
    _ = ∑ c, ∑ a, ∑ b, ∑ d, X a b c d := Finset.sum_comm
    _ = ∑ c, ∑ a, ∑ d, ∑ b, X a b c d :=
        Finset.sum_congr rfl fun c _ => Finset.sum_congr rfl fun a _ => Finset.sum_comm
    _ = ∑ c, ∑ d, ∑ a, ∑ b, X a b c d := Finset.sum_congr rfl fun c _ => Finset.sum_comm

/-! ## A non-negative real factor and a finite sum -/

/-- `(∑ f) * x = ∑ (f * x)` for a real `x ≥ 0`, whatever the terms are (infinities of both signs included). -/
theorem sum_mul_coe {ι : Type*} (s : Finset ι) (f : ι → EReal) {x : ℝ} (hx : 0 ≤ x) :
    (∑ i ∈ s, f i) * (x : EReal) = ∑ i ∈ s, f i * (x : EReal) := by
  classical
  induction s using Finset.induction_on with
  | empty => simp
  | insert a s ha ih =>
    rw [Finset.sum_insert ha, Finset.sum_insert ha,
      EReal.right_distrib_of_nonneg_of_ne_top (EReal.coe_nonneg.mpr hx) (EReal.coe_ne_top x), ih]

/-! ## Sums over index sets of rank 1 and 3 -/

/-- A sum over a rank-1 index set is the sum over its one coordinate. -/
def idxEquiv1 {n : Nat} : (⟨1, ![n]⟩ : Shape).Idx ≃ Fin n where
  toFun i := i 0
  invFun a := ix1 a
  left_inv i := (eq_ix1 i).symm
  right_inv _ := rfl
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges, so a sum over it is the triple sum. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibFiniteSums

end
-- ==== Proof.Spec.lean ====
/-
  Weighted binary cross-entropy, averaged over all pixels: the function both programs compute, on the extended reals.

  For a probability `p`, a label `t` and a hard-negative weight `n` of one pixel,

      weight t n = 1 + n   if n > 0,   else 1 if t > 0 or n = 0,   else 0
      bce p t    = -(t · max (log p) (-100) + (1 - t) · max (log (1 + (-p))) (-100))
      term       = weight t n · bce p t

  and the result is `(0 + ∑ₖ termₖ) / 2²³` over the 2²³ pixels `k` of a [32, 1, 512, 512] array read row-major.
  Addition on the extended reals is commutative and associative at the infinities too, so the sum may be taken in any
  grouping: `regroup` cuts the flat range into 2 halves × 8 tiles × 1024 rows × 512 lanes and sums lanes outermost
  within a half.
-/
import Idealize.ShloMosaic.PureOps.Ideal
import Idealize.ShloMosaic.PureOps.Ideal.Laws
import Idealize.ShloMosaic.Lib.ValueIdx
import proofs.«120076_j26989574488433_2_alg».proof.Proof.LibFiniteSums

noncomputable section

open scoped BigOperators
open Idealize.ShloMosaic Idealize.ShloMosaic.ValueIdx

namespace Cert.WeightedBce

/-- The four float literals of both programs, as the extended reals their patterns denote: 0, 1, -100 and 2²³. -/
abbrev zeroW : EReal := Ideal.ofBits .f32 0x00000000#32
abbrev oneW : EReal := Ideal.ofBits .f32 0x3F800000#32
abbrev floorW : EReal := Ideal.ofBits .f32 0xC2C80000#32
abbrev countW : EReal := Ideal.ofBits .f32 0x4B000000#32

/-- The zero pattern denotes 0, so subtracting from it negates. -/
theorem zeroW_sub (x : EReal) : zeroW - x = -x := by
  rw [show zeroW = 0 from Ideal.ofBits_zero_f32, sub_eq_add_neg, zero_add]

theorem zeroW_add (x : EReal) : zeroW + x = x := by
  rw [show zeroW = 0 from Ideal.ofBits_zero_f32, zero_add]

/-- A pixel's weight: `1 + n` on a hard negative, `1` on a positive or an easy negative, else `0`. -/
def weight (t n : EReal) : EReal :=
  Scalar.select (Ideal.cmp .ogt n zeroW) (oneW + n)
    (Scalar.select (IntOp.ori (Ideal.cmp .ogt t zeroW) (Ideal.cmp .oeq n zeroW)) oneW zeroW)

/-- A pixel's cross-entropy with both logarithms clamped below at -100. -/
def bce (p t : EReal) : EReal :=
  -(t * max (Ideal.log p) floorW + (oneW - t) * max (Ideal.log1p (-p)) floorW)

/-- A pixel's contribution. -/
def term (p t n : EReal) : EReal := weight t n * bce p t

/-- The same with both negations spelt as subtractions from the zero pattern. -/
theorem term_sub (p t n : EReal) :
    term p t n = weight t n * (zeroW - (t * max (Ideal.log p) floorW + (oneW - t) * max (Ideal.log1p (zeroW - p)) floorW)) := by
  rw [zeroW_sub, zeroW_sub]; rfl

/-- The shape of the three arguments. -/
abbrev SArg : Shape := ⟨4, ![32, 1, 512, 512]⟩

/-- Position `k` of the row-major flattening of a [32, 1, 512, 512] array, as an index of the array. -/
def pixel (k : ℕ) : SArg.Idx := fun a => match a with
  | ⟨0, _⟩ => ⟨k / 262144 % 32, Nat.mod_lt _ (by norm_num)⟩
  | ⟨1, _⟩ => ⟨0, Nat.one_pos⟩
  | ⟨2, _⟩ => ⟨k / 512 % 512, Nat.mod_lt _ (by norm_num)⟩
  | ⟨3, _⟩ => ⟨k % 512, Nat.mod_lt _ (by norm_num)⟩

/-- The contribution of flat position `k`. -/
def pix (x0 x1 x2 : SArg.Idx → EReal) (k : ℕ) : EReal :=
  term (x0 (pixel k)) (x1 (pixel k)) (x2 (pixel k))

/-- THE RESULT: the sum of all contributions from 0, divided by the number of pixels. -/
def mean (x0 x1 x2 : SArg.Idx → EReal) : EReal :=
  Ideal.div (zeroW + ∑ k : Fin 8388608, pix x0 x1 x2 k.val) countW

/-- The flat sum over 2²³ positions, cut as the tiled computation cuts it: position
    `(((8c + s)·1024 + r)·512 + l)` is lane `l` of row `r` of tile `s` of half `c`; within a half the lanes are summed last. -/
theorem regroup {M : Type*} [AddCommMonoid M] (T : ℕ → M) :
    ∑ k : Fin 8388608, T k.val
      = ∑ c : Fin 2, ∑ l : Fin 512, ∑ s ∈ Finset.range 8, ∑ r : Fin 1024,
          T (((8 * c.val + s) * 1024 + r.val) * 512 + l.val) := by
  have e1 := Cert.LibFiniteSums.sum_split 16384 512 8388608 rfl (fun k : Fin 8388608 => T k.val)
  have e2 := Cert.LibFiniteSums.sum_split 16 1024 16384 rfl
    (fun R : Fin 16384 => ∑ L : Fin 512, T (L.val + 512 * R.val))
  have e3 := Cert.LibFiniteSums.sum_split 2 8 16 rfl
    (fun t : Fin 16 => ∑ r : Fin 1024, ∑ L : Fin 512, T (L.val + 512 * (r.val + 1024 * t.val)))
  refine e1.trans (e2.trans (e3.trans ?_))
  refine Finset.sum_congr rfl fun c _ => ?_
  calc ∑ s : Fin 8, ∑ r : Fin 1024, ∑ L : Fin 512, T (L.val + 512 * (r.val + 1024 * (s.val + 8 * c.val)))
      = ∑ s : Fin 8, ∑ L : Fin 512, ∑ r : Fin 1024, T (L.val + 512 * (r.val + 1024 * (s.val + 8 * c.val))) :=
        Finset.sum_congr rfl fun s _ => Finset.sum_comm
    _ = ∑ L : Fin 512, ∑ s : Fin 8, ∑ r : Fin 1024, T (L.val + 512 * (r.val + 1024 * (s.val + 8 * c.val))) :=
        Finset.sum_comm
    _ = _ := by
        refine Finset.sum_congr rfl fun L _ => ?_
        rw [Finset.sum_range (fun s => ∑ r : Fin 1024, T (((8 * c.val + s) * 1024 + r.val) * 512 + L.val))]
        exact Finset.sum_congr rfl fun s _ => Finset.sum_congr rfl fun r _ => congrArg T (by ring)

end Cert.WeightedBce

end
-- ==== Proof.KernelPayload.lean ====
/-
  The body's arithmetic read at an index, on the extended reals.

  * the product of the weight tile and the cross-entropy tile at a position is that pixel's `term`;
  * one step of the running row at lane `l` adds the column sum `∑ᵣ term(r, l)` of the tile's 1024 rows to the row's entry;
  * the half's output cell is the sum of the row's 512 lanes;
  * the row a half starts from is zero.
-/
import proofs.«120076_j26989574488433_2_alg».proof.Proof.Gen.KernelIdeal.Skeleton
import proofs.«120076_j26989574488433_2_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen Cert.WeightedBce

/-- Weight times cross-entropy, at one position of a tile. -/
theorem weighted_apply (x0 x1 x2 : Vec Ideal S1024x512 .f32) (j : S1024x512.Idx) :
    mulf (k0_pay5 x1 x2) (k0_pay6 x0 x1) j = term (x0 j) (x1 j) (x2 j) := by
  unfold k0_pay5 k0_pay6 k0_pay4
  simp only [shapeCast_self]
  rw [term_sub]
  rfl

/-- The source index of a sum over the rows: row `k`, the lane kept. -/
theorem lift_rows (l : Fin 512) (k : Fin 1024) : reduces_S1024x512_S512.lift (ix1 l) k = ix2 k l := by
  funext a
  apply Fin.ext
  match a with
  | ⟨0, _⟩ => rfl
  | ⟨1, _⟩ => rfl

/-- A sum over the 1024 rows of a tile, from the zero pattern, at lane `l`. -/
theorem colsum_apply (v : FVec Ideal S1024x512 .f32) (hacc : (0x00000000#32 : BitVec 32) = 0x00000000#32) (l : Fin 512) :
    multiReduction .add [0] S512 v 0x00000000#32 reduces_S1024x512_S512 (.inl rfl) hacc (ix1 l)
      = ∑ r : Fin 1024, v (ix2 r l) :=
  (Ideal.multiReduction_add_single v 0x00000000#32 reduces_S1024x512_S512 (.inl rfl) hacc (ix1 l)).trans
    (Finset.sum_congr rfl fun k _ => congrArg v (lift_rows l k))

/-- A [512] vector viewed as a [1, 512] row. -/
theorem row_of_lanes {α : Type} (w : S512.Idx → α) (u : Fin 1) (l : Fin 512) :
    shapeCast S1x512 w shapeCasts_S512_S1x512 (ix2 u l) = w (ix1 l) :=
  (shapeCast_addUnit_apply ![512] w shapeCasts_S512_S1x512 (ix2 u l)).trans
    (congrArg w (funext fun a => by match a with | ⟨0, _⟩ => rfl))

/-- ONE STEP of the running row, at lane `l`: the entry before plus the tile's column sum of `term`. -/
theorem step_apply (x0 x1 x2 : Vec Ideal S1024x512 .f32) (row : Vec Ideal S1x512 .f32) (u : Fin 1) (l : Fin 512) :
    k0_pay1 (k0_pay5 x1 x2) (k0_pay6 x0 x1) row (ix2 u l)
      = row (ix2 u l) + ∑ r : Fin 1024, term (x0 (ix2 r l)) (x1 (ix2 r l)) (x2 (ix2 r l)) := by
  unfold k0_pay1
  show shapeCast S1x512 (addf row (shapeCast S1x512 (multiReduction .add [0] S512 (mulf (k0_pay5 x1 x2) (k0_pay6 x0 x1))
      0x00000000#32 reduces_S1024x512_S512 (.inl rfl) rfl) shapeCasts_S512_S1x512)) shapeCasts_S1x512_S1x512 (ix2 u l) = _
  refine (congrFun (shapeCast_self _ shapeCasts_S1x512_S1x512) (ix2 u l)).trans ?_
  refine congrArg (row (ix2 u l) + ·) ?_
  refine (row_of_lanes _ u l).trans ?_
  refine (colsum_apply _ rfl l).trans ?_
  exact Finset.sum_congr rfl fun r _ => weighted_apply x0 x1 x2 (ix2 r l)

/-- The source index of a sum over the lanes of a one-row matrix: the row kept, lane `k`. -/
theorem lift_lanes (d : Fin 1) (k : Fin 512) : reduces_S1x512_S1.lift (ix1 d) k = ix2 d k := by
  funext a
  apply Fin.ext
  match a with
  | ⟨0, _⟩ => rfl
  | ⟨1, _⟩ => rfl

/-- THE LANE SUM: the output cell is the sum of the running row's 512 lanes. -/
theorem lanesum_apply (v : Vec Ideal S1x512 .f32) (a b d : Fin 1) :
    k0_pay2 v (ix3 a b d) = ∑ l : Fin 512, v (ix2 d l) := by
  unfold k0_pay2
  show shapeCast S1x1x1 (shapeCast S1x1 (multiReduction (F := Ideal) .add [1] S1 v 0x00000000#32 reduces_S1x512_S1 (.inl rfl) rfl)
      shapeCasts_S1_S1x1) shapeCasts_S1x1_S1x1x1 (ix3 a b d) = _
  refine (shapeCast_addUnit_apply ![1, 1] _ shapeCasts_S1x1_S1x1x1 (ix3 a b d)).trans ?_
  refine (shapeCast_addUnit_apply ![1] _ shapeCasts_S1_S1x1 _).trans ?_
  have e : (fun q : Fin 1 => (fun p : Fin 2 => (ix3 a b d : S1x1x1.Idx) p.succ) q.succ) = (ix1 d : S1.Idx) :=
    funext fun q => by match q with | ⟨0, _⟩ => rfl
  refine (congrArg _ e).trans ?_
  refine (Ideal.multiReduction_add_single (φ := .f32) v 0x00000000#32 reduces_S1x512_S1 (.inl rfl) rfl (ix1 d)).trans ?_
  exact Finset.sum_congr rfl fun k _ => congrArg v (lift_lanes d k)

/-- The row a half starts from: zero everywhere. -/
theorem zero_apply (y : S1x512.Idx) : k0_pay3 (F := Ideal) y = zeroW := by
  unfold k0_pay3
  exact congrFun (shapeCast_self _ shapeCasts_S1x512_S1x512) y

end Cert.KernelIdeal.Payload

end
-- ==== Proof.KernelAccum.lean ====
/-
  The running row, point by point. Grid point `n` (of 16) works on tile `n`; points `8q … 8q + 7` form half `q`.
  By induction on the point: after point `n` the scratch row holds, at lane `l`,

      0 + ∑ over the tiles s of this half up to n of (the column sum of tile s at lane l),

  the sum restarting at each half's first point (the zero row is stored there); and at a half's last point the output
  cell holds the sum over the 512 lanes of that row.
-/
import proofs.«120076_j26989574488433_2_alg».proof.Proof.KernelPieces
import proofs.«120076_j26989574488433_2_alg».proof.Proof.KernelPayload

noncomputable section

open scoped BigOperators
open Idealize.ShloMosaic Idealize.ShloMosaic.TcCoe Idealize.SL.Sem Idealize.ShloMosaic.ValueIdx

namespace Cert.KernelIdeal.Accum

open Cert.KernelIdeal Cert.KernelIdeal.Gen Cert.WeightedBce Cert.KernelIdeal.Pieces Cert.KernelIdeal.Payload

variable (m : (ℓ : Loc nD τ sig) → Buf (Elt Ideal) ℓ)

/-- The column sum of a tile at lane `l`: the sum of `term` over the tile's 1024 rows. -/
def colSum (x0 x1 x2 : Vec Ideal S1024x512 .f32) (l : Fin 512) : EReal :=
  ∑ r : Fin 1024, term (x0 (ix2 r l)) (x1 (ix2 r l)) (x2 (ix2 r l))

/-- The column sum of tile `n` at lane `l` (0 past the grid, never used). -/
def tileCol (c : Dev nD) (n : ℕ) (l : Fin 512) : EReal :=
  if h : n < cfg0.N then colSum (iblk m c 0 ⟨n, h⟩) (iblk m c 1 ⟨n, h⟩) (iblk m c 2 ⟨n, h⟩) l else 0

theorem tileCol_of_lt (c : Dev nD) (t : Fin cfg0.N) (l : Fin 512) :
    tileCol m c t.val l = colSum (iblk m c 0 t) (iblk m c 1 t) (iblk m c 2 t) l := by
  unfold tileCol
  exact dif_pos t.isLt

/-- One step at lane `l`, for tiles and a row given as plain matrices. -/
theorem step_col (x0 x1 x2 : Vec Ideal S1024x512 .f32) (row : Vec Ideal S1x512 .f32) (u : Fin 1) (l : Fin 512) :
    step x0 x1 x2 row (ix2 u l) = row (ix2 u l) + colSum x0 x1 x2 l :=
  step_apply x0 x1 x2 row u l

/-- The scratch row after a half's first point: the step from the zero row. -/
theorem row_first (c : Dev nD) (t : Fin cfg0.N) (h0 : t.val % 8 = 0) (u : Fin 1) (l : Fin 512) :
    (outsAt0 m c t.val t.isLt).2 (ix2 u l) = zeroW + tileCol m c t.val l := by
  have h1 : ¬t.val % 8 = 7 := by omega
  rw [outsAt0_A m c t h0 h1, tileCol_of_lt m c t l]
  dsimp only
  refine (congrFun (scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 u l)).trans ?_
  refine (step_col (iblk m c 0 t) (iblk m c 1 t) (iblk m c 2 t) (k0_pay3 (F := Ideal)) u l).trans ?_
  exact congrArg (· + colSum (iblk m c 0 t) (iblk m c 1 t) (iblk m c 2 t) l) (zero_apply (ix2 u l))

/-- The scratch row after any later point of a half: the step from the row the point before left. -/
theorem row_next (c : Dev nD) (t : Fin cfg0.N) (h0 : ¬t.val % 8 = 0) (u : Fin 1) (l : Fin 512) :
    (outsAt0 m c t.val t.isLt).2 (ix2 u l)
      = (outsAt0 m c (t.val - 1) (Nat.lt_of_le_of_lt (Nat.sub_le _ _) t.isLt)).2 (ix2 u l) + tileCol m c t.val l := by
  rw [tileCol_of_lt m c t l]
  by_cases h1 : t.val % 8 = 7
  · rw [outsAt0_C m c t h0 h1]
    dsimp only
    refine (congrFun (scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2) (ix2 u l)).trans ?_
    exact step_col (iblk m c 0 t) (iblk m c 1 t) (iblk m c 2 t) (outsAt0 m c (t.val - 1) (Nat.lt_of_le_of_lt (Nat.sub_le _ _) t.isLt)).2 u l
  · rw [outsAt0_B m c t h0 h1]
    dsimp only
    refine (congrFun (scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t)
      (outsAt0 m c (t.val - 1) (Nat.lt_of_le_of_lt (Nat.sub_le _ _) t.isLt)).2) (ix2 u l)).trans ?_
    exact step_col (iblk m c 0 t) (iblk m c 1 t) (iblk m c 2 t) (outsAt0 m c (t.val - 1) (Nat.lt_of_le_of_lt (Nat.sub_le _ _) t.isLt)).2 u l

/-- THE RUNNING ROW after point `n`: zero plus the column sums of the tiles of `n`'s half up to `n`. -/
theorem row_eq (c : Dev nD) : ∀ (n : ℕ) (h : n < cfg0.N) (u : Fin 1) (l : Fin 512),
    (outsAt0 m c n h).2 (ix2 u l) = zeroW + ∑ s ∈ Finset.range (n % 8 + 1), tileCol m c (8 * (n / 8) + s) l
  | 0, h, u, l => by
    rw [row_first m c ⟨0, h⟩ rfl u l]
    simp
  | n + 1, h, u, l => by
    by_cases h0 : (n + 1) % 8 = 0
    · rw [row_first m c ⟨n + 1, h⟩ h0 u l]
      dsimp only
      rw [h0, Finset.sum_range_one]
      have e : 8 * ((n + 1) / 8) + 0 = n + 1 := by omega
      rw [e]
    · rw [row_next m c ⟨n + 1, h⟩ h0 u l]
      show (outsAt0 m c n (Nat.lt_of_succ_lt h)).2 (ix2 u l) + tileCol m c (n + 1) l = _
      rw [row_eq c n (Nat.lt_of_succ_lt h) u l]
      have e1 : (n + 1) % 8 + 1 = (n % 8 + 1) + 1 := by omega
      have e2 : (n + 1) / 8 = n / 8 := by omega
      have e3 : 8 * (n / 8) + (n % 8 + 1) = n + 1 := by omega
      rw [e1, e2, Finset.sum_range_succ _ (n % 8 + 1), e3, add_assoc]

/-- At a half's last point the output cell is the lane sum of the scratch row. -/
theorem cell_row (c : Dev nD) (t : Fin cfg0.N) (h7 : t.val % 8 = 7) :
    (outsAt0 m c t.val t.isLt).1 = k0_pay2 (outsAt0 m c t.val t.isLt).2 := by
  have h0 : ¬t.val % 8 = 0 := by omega
  rw [outsAt0_C m c t h0 h7]
  dsimp only
  refine (out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t)
    (outsAt0 m c (t.val - 1) (Nat.lt_of_le_of_lt (Nat.sub_le _ _) t.isLt)).2).trans ?_
  exact congrArg (k0_pay2 (F := Ideal)) (scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t)
    (outsAt0 m c (t.val - 1) (Nat.lt_of_le_of_lt (Nat.sub_le _ _) t.isLt)).2).symm

/-- THE OUTPUT CELL of half `t / 8`, written at the half's last point `t`: the sum over the lanes of zero plus the
    column sums of the half's eight tiles. -/
theorem cell_eq (c : Dev nD) (t : Fin cfg0.N) (h7 : t.val % 8 = 7) (a b d : Fin 1) :
    (outsAt0 m c t.val t.isLt).1 (ix3 a b d)
      = ∑ l : Fin 512, (zeroW + ∑ s ∈ Finset.range 8, tileCol m c (8 * (t.val / 8) + s) l) := by
  rw [cell_row m c t h7]
  refine (lanesum_apply (outsAt0 m c t.val t.isLt).2 a b d).trans ?_
  refine Finset.sum_congr rfl fun l _ => ?_
  rw [row_eq m c t.val t.isLt d l, h7]

end Cert.KernelIdeal.Accum

end
-- ==== Proof.KernelArray.lean ====
/-
  From the grid points to the kernel's result. The three arguments reach the grid reshaped to [16384, 512]; tile `t`
  is rows `1024·t … 1024·t + 1023`, so a tile's entry at (r, l) is the argument at flat position `(1024·t + r)·512 + l`.
  The output array [2, 1, 1] is written back once per half, at the half's last point, its cell `q` the lane sum of half
  `q`'s running row; those two write-backs cover it. The host then adds the two cells to 0 and divides by 2²³. With the
  flat sum cut into halves, tiles, rows and lanes (`regroup`) that is `mean` of the arguments.
-/
import proofs.«120076_j26989574488433_2_alg».proof.Proof.KernelAccum
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.WeightedBce Cert.KernelIdeal.Accum

variable (m : (ℓ : Loc nD τ sig) → Buf (Elt Ideal) ℓ) (ρ : Dev nD → PrngReg)

/-! ## The input tiles -/

/-- The arrays the grid reads are the arguments reshaped to [16384, 512]. -/
theorem V_v0 (c : Dev nD) : (V m c main_v0 : S16384x512.Idx → EReal)
    = shapeCast S16384x512 (m ((c : Thread nD τ).loc main_arg0)) shapeCasts_S32x1x512x512_S16384x512 := by
  show StableHlo.after hostOps0 (fun b => m (c, b)) (Proc.devRef .tc main_v0) = _
  after_results
  rfl
theorem V_v1 (c : Dev nD) : (V m c main_v1 : S16384x512.Idx → EReal)
    = shapeCast S16384x512 (m ((c : Thread nD τ).loc main_arg1)) shapeCasts_S32x1x512x512_S16384x512 := by
  show StableHlo.after hostOps0 (fun b => m (c, b)) (Proc.devRef .tc main_v1) = _
  after_results
  rfl
theorem V_v2 (c : Dev nD) : (V m c main_v2 : S16384x512.Idx → EReal)
    = shapeCast S16384x512 (m ((c : Thread nD τ).loc main_arg2)) shapeCasts_S32x1x512x512_S16384x512 := by
  show StableHlo.after hostOps0 (fun b => m (c, b)) (Proc.devRef .tc main_v2) = _
  after_results
  rfl

/-- Tile `t` of argument 0 at row `r`, lane `l`: the argument at flat position `(1024·t + r)·512 + l`. -/
theorem idx_facts0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem iblk0_apply (c : Dev nD) (t : Fin cfg0.N) (r : Fin 1024) (l : Fin 512) :
    (iblk m c 0 t : Vec Ideal S1024x512 .f32) (ix2 r l)
      = m ((c : Thread nD τ).loc main_arg0) (pixel ((t.val * 1024 + r.val) * 512 + l.val)) := by
  have hi := idx_facts0 t
  have ht : t.val < 16 := lt_of_lt_of_eq t.isLt (show cfg0.N = 16 from N_0)
  have hr := r.isLt
  have hl := l.isLt
  unfold iblk
  rw [View.read_apply]
  show V m c main_v0 (((cfg0.win 0).blk t).view.emb (ix2 r l)) = _
  rw [V_v0]
  refine shapeCast_apply _ shapeCasts_S32x1x512x512_S16384x512 _ (pixel ((t.val * 1024 + r.val) * 512 + l.val)) ?_
  rw [Shape.rowMajor_val_four, Shape.rowMajor_val_two]
  show ((((t.val * 1024 + r.val) * 512 + l.val) / 262144 % 32 * 1 + 0) * 512 + ((t.val * 1024 + r.val) * 512 + l.val) / 512 % 512) * 512
      + ((t.val * 1024 + r.val) * 512 + l.val) % 512
    = (win0_0.index t 0 * 1024 + 1 * r.val) * 512 + (win0_0.index t 1 * 512 + 1 * l.val)
  rw [hi.1, hi.2]
  omega

/-- Tile `t` of argument 1 at row `r`, lane `l`: the argument at flat position `(1024·t + r)·512 + l`. -/
theorem idx_facts1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

theorem iblk1_apply (c : Dev nD) (t : Fin cfg0.N) (r : Fin 1024) (l : Fin 512) :
    (iblk m c 1 t : Vec Ideal S1024x512 .f32) (ix2 r l)
      = m ((c : Thread nD τ).loc main_arg1) (pixel ((t.val * 1024 + r.val) * 512 + l.val)) := by
  have hi := idx_facts1 t
  have ht : t.val < 16 := lt_of_lt_of_eq t.isLt (show cfg0.N = 16 from N_0)
  have hr := r.isLt
  have hl := l.isLt
  unfold iblk
  rw [View.read_apply]
  show V m c main_v1 (((cfg0.win 1).blk t).view.emb (ix2 r l)) = _
  rw [V_v1]
  refine shapeCast_apply _ shapeCasts_S32x1x512x512_S16384x512 _ (pixel ((t.val * 1024 + r.val) * 512 + l.val)) ?_
  rw [Shape.rowMajor_val_four, Shape.rowMajor_val_two]
  show ((((t.val * 1024 + r.val) * 512 + l.val) / 262144 % 32 * 1 + 0) * 512 + ((t.val * 1024 + r.val) * 512 + l.val) / 512 % 512) * 512
      + ((t.val * 1024 + r.val) * 512 + l.val) % 512
    = (win0_1.index t 0 * 1024 + 1 * r.val) * 512 + (win0_1.index t 1 * 512 + 1 * l.val)
  rw [hi.1, hi.2]
  omega

/-- Tile `t` of argument 2 at row `r`, lane `l`: the argument at flat position `(1024·t + r)·512 + l`. -/
theorem idx_facts2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

theorem iblk2_apply (c : Dev nD) (t : Fin cfg0.N) (r : Fin 1024) (l : Fin 512) :
    (iblk m c 2 t : Vec Ideal S1024x512 .f32) (ix2 r l)
      = m ((c : Thread nD τ).loc main_arg2) (pixel ((t.val * 1024 + r.val) * 512 + l.val)) := by
  have hi := idx_facts2 t
  have ht : t.val < 16 := lt_of_lt_of_eq t.isLt (show cfg0.N = 16 from N_0)
  have hr := r.isLt
  have hl := l.isLt
  unfold iblk
  rw [View.read_apply]
  show V m c main_v2 (((cfg0.win 2).blk t).view.emb (ix2 r l)) = _
  rw [V_v2]
  refine shapeCast_apply _ shapeCasts_S32x1x512x512_S16384x512 _ (pixel ((t.val * 1024 + r.val) * 512 + l.val)) ?_
  rw [Shape.rowMajor_val_four, Shape.rowMajor_val_two]
  show ((((t.val * 1024 + r.val) * 512 + l.val) / 262144 % 32 * 1 + 0) * 512 + ((t.val * 1024 + r.val) * 512 + l.val) / 512 % 512) * 512
      + ((t.val * 1024 + r.val) * 512 + l.val) % 512
    = (win0_2.index t 0 * 1024 + 1 * r.val) * 512 + (win0_2.index t 1 * 512 + 1 * l.val)
  rw [hi.1, hi.2]
  omega

/-- The three arguments on core `c`. -/
abbrev argP (c : Dev nD) : SArg.Idx → EReal := m ((c : Thread nD τ).loc main_arg0)
abbrev argT (c : Dev nD) : SArg.Idx → EReal := m ((c : Thread nD τ).loc main_arg1)
abbrev argN (c : Dev nD) : SArg.Idx → EReal := m ((c : Thread nD τ).loc main_arg2)

/-- A tile's column sum, over the arguments: the contributions of the tile's 1024 positions on lane `l`. -/
theorem tileCol_eq (c : Dev nD) (n : ℕ) (h : n < cfg0.N) (l : Fin 512) :
    tileCol m c n l = ∑ r : Fin 1024, pix (argP m c) (argT m c) (argN m c) ((n * 1024 + r.val) * 512 + l.val) := by
  rw [tileCol_of_lt m c ⟨n, h⟩ l]
  unfold colSum pix
  refine Finset.sum_congr rfl fun r _ => ?_
  have e0 := iblk0_apply m c ⟨n, h⟩ r l
  have e1 := iblk1_apply m c ⟨n, h⟩ r l
  have e2 := iblk2_apply m c ⟨n, h⟩ r l
  show term ((iblk m c 0 ⟨n, h⟩ : Vec Ideal S1024x512 .f32) (ix2 r l)) ((iblk m c 1 ⟨n, h⟩ : Vec Ideal S1024x512 .f32) (ix2 r l))
    ((iblk m c 2 ⟨n, h⟩ : Vec Ideal S1024x512 .f32) (ix2 r l)) = _
  rw [e0, e1, e2]

/-! ## The output array -/

/-- Half `q`'s cell: the lane sum of zero plus the column sums of the half's eight tiles. -/
def half (c : Dev nD) (q : ℕ) : EReal :=
  ∑ l : Fin 512, (zeroW + ∑ s ∈ Finset.range 8, tileCol m c (8 * q + s) l)

/-- The output array after the run: cell `q` at half `q`'s value. -/
abbrev cells (c : Dev nD) : S2x1x1.Idx → EReal := fun idx => half m c (idx 0).val

theorem idx_facts3 : ∀ t : Fin cfg0.N, win0_3.index t (0 : Fin 3) = t.val / 8 ∧ win0_3.index t (1 : Fin 3) = 0
    ∧ win0_3.index t (2 : Fin 3) = 0 :=
  (by decide +kernel : ∀ t : Fin grid0.N, win0_3.index t (0 : Fin 3) = t.val / 8 ∧ win0_3.index t (1 : Fin 3) = 0
    ∧ win0_3.index t (2 : Fin 3) = 0)

/-- At a half's last point the staged cell holds the half's value, at its only index. -/
theorem cell_at (c : Dev nD) (t : Fin cfg0.N) (h7 : t.val % 8 = 7) (y : S1x1x1.Idx) :
    (outsAt0 m c t.val t.isLt).1 y = half m c (t.val / 8) := by
  rw [eq_ix3 y]
  exact cell_eq m c t h7 (y 0) (y 1) (y 2)

/-- WHAT A WRITE-BACK WRITES: the block of `cells` its point names. -/
theorem flushed_eq (c : Dev nD) (t : Fin cfg0.N) (hf : (cfg0.win 3).flush t = true) :
    (dats m 0 c).flushed 3 t = ((cfg0.win 3).blk t).view.read (Elt Ideal) (cells m c) := by
  have h7 := (flush0_3 t).mp hf
  obtain ⟨e0, e1, e2⟩ := idx_facts3 t
  show (cfg0.win 3).cut (grid0.coords t) ((dats m 0 c).after 3 t) = _
  rw [after0_3]
  funext y
  show (outsAt0 m c t.val t.isLt).1 y = half m c ((((cfg0.win 3).blk t).view.emb y) 0).val
  refine (cell_at m c t h7 y).trans (congrArg (half m c) ?_)
  show t.val / 8 = win0_3.index t (0 : Fin 3) * 1 + 1 * (y 0).val
  have hy : (y 0).val < 1 := (y 0).isLt
  omega

/-- An index of the output array is in point `t`'s block iff each coordinate is in the block's range on its axis. -/
theorem mem_blk3 (t : Fin cfg0.N) (i : S2x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v3).slice (win0_3.rect t)).set ↔ _
  rw [View.set_slice_whole, Rect.mem_set_unit]
  exact Iff.rfl

/-- THE OUTPUT ARRAY after the run is `cells`: cell `q` is written back at point `8q + 7`. -/
theorem final3 (c : Dev nD) : (dats m 0 c).arrAt 3 cfg0.N = cells m c :=
  (dats m 0 c).arrAt_eq_of_cover 3 (cells m c) (flushed_eq m c) fun i => by
    have hN : cfg0.N = 16 := N_0
    have h0 : (i 0).val < 2 := (i 0).isLt
    have h1 : (i 1).val < 1 := (i 1).isLt
    have h2 : (i 2).val < 1 := (i 2).isLt
    refine ⟨⟨8 * (i 0).val + 7, by omega⟩, (flush0_3 _).mpr (by dsimp only; omega), ?_⟩
    rw [mem_blk3]
    obtain ⟨e0, e1, e2⟩ := idx_facts3 ⟨8 * (i 0).val + 7, by omega⟩
    dsimp only at e0
    intro a
    match a with
    | ⟨0, _⟩ => show win0_3.index _ (0 : Fin 3) * 1 ≤ (i 0).val ∧ (i 0).val < win0_3.index _ (0 : Fin 3) * 1 + 1; omega
    | ⟨1, _⟩ => show win0_3.index _ (1 : Fin 3) * 1 ≤ (i 1).val ∧ (i 1).val < win0_3.index _ (1 : Fin 3) * 1 + 1; omega
    | ⟨2, _⟩ => show win0_3.index _ (2 : Fin 3) * 1 ≤ (i 2).val ∧ (i 2).val < win0_3.index _ (2 : Fin 3) * 1 + 1; omega

/-! ## The host's sum and quotient -/

/-- A half's value over the arguments. -/
theorem half_eq (c : Dev nD) (q : Fin 2) :
    half m c q.val = ∑ l : Fin 512, ∑ s ∈ Finset.range 8, ∑ r : Fin 1024,
      pix (argP m c) (argT m c) (argN m c) (((8 * q.val + s) * 1024 + r.val) * 512 + l.val) := by
  have hN : cfg0.N = 16 := N_0
  have hq := q.isLt
  unfold half
  refine Finset.sum_congr rfl fun l _ => ?_
  rw [zeroW_add]
  refine Finset.sum_congr rfl fun s hs => ?_
  have hs' := Finset.mem_range.mp hs
  exact tileCol_eq m c (8 * q.val + s) (by omega) l

/-- The two cells add up to the flat sum of all contributions. -/
theorem cells_sum (c : Dev nD) :
    ∑ idx : S2x1x1.Idx, cells m c idx = ∑ k : Fin 8388608, pix (argP m c) (argT m c) (argN m c) k.val := by
  rw [Cert.LibFiniteSums.sum_idx3, regroup (pix (argP m c) (argT m c) (argN m c))]
  refine Finset.sum_congr rfl fun q _ => ?_
  simp only [Finset.univ_unique, Finset.sum_singleton]
  exact half_eq m c q

/-- THE KERNEL'S RESULT, as the lines after the grid leave it: the mean of the arguments. -/
theorem result (c : Dev nD) :
    Pipeline.afterTail₀ cfgs (dats m) 0 (V0 m) [hostOps1] c main_v5 = fun _ => mean (argP m c) (argT m c) (argN m c) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v3)
      = cells m c :=
    (Pipeline.withArrays_arr spec0 launch0.win.arr_inj c _ _ 3).trans (final3 m c)
  rw [hw]
  funext i
  unfold mean
  rw [← cells_sum m c]
  show Ideal.div (Host.reduceAdd (F := Ideal) (cells m c) (constant (F := Ideal) S_ .f32 0x00000000#32) reducesTo_S2x1x1_S_d0_1_2 h_S_ i) countW
    = Ideal.div (zeroW + ∑ idx : S2x1x1.Idx, cells m c idx) countW
  refine congrArg (fun z => Ideal.div z countW) ?_
  simp only [Host.reduceAdd, Ideal.hostReduceAdd_def]
  exact Ideal.hostReduceAdd_total reducesTo_S2x1x1_S_d0_1_2 (fun b => b.elim0) (cells m c) _ i

/-- THE RUN, READ: every execution of the kernel's @main ends with its result at the mean of the arguments and the
    arguments unchanged. -/
theorem run : θ_run defs (onTc (τ := τ) (main (F := Ideal))) ⟨m, fun _ => 0, ρ⟩ fun r => ∀ c : Dev nD,
      r.2.mem ((c : Thread nD τ).loc main_v5) = (fun _ => mean (argP m c) (argT m c) (argN m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v5 (Pipeline.mem_restRefs_of main_v5 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Arrays

end
-- ==== Proof.RefValue.lean ====
/-
  The reference computes `mean`. It flattens the three arguments, forms every pixel's weight and clamped cross-entropy
  (its two negations as negations, its `where`s as selects), multiplies them, sums the 2²³ products from 0 and divides
  by 2²³: position `k` of a flattened argument is the argument at `pixel k`, so the product at `k` is `pix … k`.
-/
import proofs.«120076_j26989574488433_2_alg».proof.Proof.Gen.ReferenceIdeal.Read
import proofs.«120076_j26989574488433_2_alg».proof.Proof.Spec

noncomputable section

open scoped BigOperators
open Idealize.ShloMosaic Idealize.ShloMosaic.ValueIdx

namespace Cert.ReferenceIdeal.RefValue

open Cert.ReferenceIdeal Cert.ReferenceIdeal.Read Cert.WeightedBce

/-- Flat position `a` of a reshaped argument is the argument at `pixel a`. -/
theorem idx_pixel (a : Fin 8388608) : idx_main_v0 (ix1 a) = pixel a.val := by
  have ha := a.isLt
  funext d
  apply Fin.ext
  match d with
  | ⟨0, _⟩ => show a.val / 262144 = a.val / 262144 % 32; omega
  | ⟨1, _⟩ => rfl
  | ⟨2, _⟩ => rfl
  | ⟨3, _⟩ => rfl

/-- The product the reference sums, at flat position `a`, is that pixel's contribution. -/
theorem contribution (x0 x1 x2 : SArg.Idx → EReal) (a : Fin 8388608) :
    val_main_v27 (F := Ideal) x0 x1 x2 (ix1 a) = pix x0 x1 x2 a.val := by
  simp only [val_main_v27_apply, val_main_v13_apply, val_main_v26_apply, val_main_v4_apply, val_main_v6_apply, val_main_call1_v0_apply, val_main_v12_apply, val_main_v11_apply, val_main_v8_apply, val_main_v10_apply, val_main_call0_v0_apply, val_main_call0_v1_apply, val_main_v25_apply, val_main_v21_apply, val_main_v24_apply, val_main_v16_apply, val_main_v14_apply, val_main_v23_apply, val_main_v20_apply, val_main_v18_apply, val_main_v17_apply, val_main_v3_apply, val_main_v5_apply, val_main_v7_apply, val_main_v9_apply, val_main_v15_apply, val_main_v19_apply, val_main_v22_apply, val_main_v0_apply, val_main_v1_apply, val_main_v2_apply, val_main_cst_apply, val_main_cst_0_apply, val_main_cst_1_apply, val_main_cst_2_apply, val_main_cst_3_apply, val_main_cst_4_apply, val_main_cst_5_apply, val_main_cst_6_apply, val_main_cst_7_apply]
  rw [show idx_main_v1 (ix1 a) = pixel a.val from idx_pixel a, show idx_main_v2 (ix1 a) = pixel a.val from idx_pixel a,
    idx_pixel a]
  rfl

/-- THE REFERENCE'S RESULT is the mean. -/
theorem result_eq (x0 x1 x2 : SArg.Idx → EReal) (i : S_.Idx) :
    val_main_v29 (F := Ideal) x0 x1 x2 i = mean x0 x1 x2 := by
  rw [val_main_v29_apply, val_main_v28_apply, val_main_cst_9_apply, val_main_cst_8_apply,
    Cert.LibFiniteSums.sum_idx1]
  simp only [contribution]
  rfl

end Cert.ReferenceIdeal.RefValue

end
-- ==== Proof.lean ====
/-
  A weighted binary cross-entropy averaged over all 2²³ pixels of three [32, 1, 512, 512] arrays: a tiled kernel
  against the plain reference, on the extended reals.

  Both programs form, per pixel, the same weight (1 + n on a hard negative, 1 on a positive or an easy negative, else 0)
  and the same cross-entropy with both logarithms clamped at -100, multiply them, add up the products from 0 and
  divide by 2²³ (`Cert.WeightedBce.mean`, Proof/Spec.lean). The reference adds the flat array in one sum
  (Proof/RefValue.lean). The kernel walks 16 tiles of 1024 rows in two halves: within a half it keeps a row of 512
  per-lane partial sums, restarted from zero at the half's first tile, to which every tile adds its column sums; at
  the half's last tile the row's lanes are added into the half's one output cell; the host adds the two cells to 0 and
  divides (Proof/KernelPieces.lean, KernelPayload.lean, KernelAccum.lean, KernelArray.lean). Addition on the extended
  reals is commutative and associative whatever infinities occur, so the two groupings of the sum agree
  (`Cert.WeightedBce.regroup`); nothing here needs the inputs to be finite. The ideal pass rewrote nothing, so
  `preserves` is `True`; the three frames are the generated frame runs.
-/
import proofs.«120076_j26989574488433_2_alg».proof.Defs
import proofs.«120076_j26989574488433_2_alg».proof.Proof.Gen.Kernel
import proofs.«120076_j26989574488433_2_alg».proof.Proof.Gen.Kernel.Frame
import proofs.«120076_j26989574488433_2_alg».proof.Proof.Gen.KernelIdeal
import proofs.«120076_j26989574488433_2_alg».proof.Proof.Gen.KernelIdeal.Frame
import proofs.«120076_j26989574488433_2_alg».proof.Proof.Gen.ReferenceIdeal
import proofs.«120076_j26989574488433_2_alg».proof.Proof.Gen.ReferenceIdeal.Run
import proofs.«120076_j26989574488433_2_alg».proof.Proof.Gen.Pre_finite_inputs
import proofs.«120076_j26989574488433_2_alg».proof.Proof.KernelArray
import proofs.«120076_j26989574488433_2_alg».proof.Proof.RefValue

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result at the mean of arguments that agree. -/
theorem algebraic : Cert.algebraic_KernelIdeal_ReferenceIdeal := by
  intro m ρ m' ρ' _ hagree
  refine ⟨fun c => fun _ => Cert.WeightedBce.mean (Cert.KernelIdeal.Arrays.argP m c) (Cert.KernelIdeal.Arrays.argT m c)
    (Cert.KernelIdeal.Arrays.argN m c), Cert.KernelIdeal.Arrays.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2.1, (hagree c).2.2]
  funext i
  exact Cert.ReferenceIdeal.RefValue.result_eq _ _ _ i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
